-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S256x2 .f32) (main_arg9 : FVec F S2 .f32) (main_v33 : IVec S_ 1) : IVec S_ 1 :=
  let main_v34 : FVec F S256x2 .f32 := Host.absf main_arg8
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S256x256 .f32) (main_arg6 : FVec F S256 .f32) (main_arg7 : FVec F S256x256 .f32) (main_arg8 : FVec F S256x2 .f32) (main_arg9 : FVec F S2 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x2 .f32) (main_arg9 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 69
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x2, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x256, .f32⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S1x2, .f32⟩
  | .hbm, ⟨68, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S256x2, .f32⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2_S1x2 : S2.ShapeCasts S1x2
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x2.size a ≤ S256x2.size a
  hwx1_5 : ∀ i : grid1.Coords, EltTy.bits .f32 = 32 ∨ (Rect.block (s := S256x2) S256x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x2.size a ≤ S50000x2.size a
  hwx1_7 : ∀ i : grid1.Coords, EltTy.bits .f32 = 32 ∨ (Rect.block (s := S50000x2) S2000x2.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S2000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x2 : Shape := ⟨2, ![50000, 2]⟩
abbrev S1x2 : Shape := ⟨2, ![1, 2]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x2, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000x256, .f32⟩
  | .hbm, ⟨57, _⟩ => ⟨S50000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S_, .f32⟩
  | .hbm, ⟨80, _⟩ => ⟨S50000x256, .f32⟩
  | .hbm, ⟨81, _⟩ => ⟨S50000x256, .f32⟩
  | .hbm, ⟨82, _⟩ => ⟨S50000x2, .f32⟩
  | .hbm, ⟨83, _⟩ => ⟨S1x2, .f32⟩
  | .hbm, ⟨84, _⟩ => ⟨S50000x2, .f32⟩
  | .hbm, ⟨85, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_cst : Ref sig .tc := ⟨.hbm, 79, rfl⟩
abbrev main_call2_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibSageRows.lean ====
/-
  A two-layer mean-aggregating graph network, node by node, over the extended reals.

  The neighbour means are computed before a layer runs, so a layer sees, for every node, the mean row `a` of
  its in-neighbours' features and the node's own feature row `h`. It sends the pair to

      conv a h wl wr b  =  j ↦ (∑ k, a k · wl[k, j]) + (∑ k, h k · wr[k, j]) + b j

  and rectifies the result entry by entry. The last step of the network is a dense layer on the rectified
  row. This file names the row function `conv`, the whole-array functions built from it (`hiddenArr`,
  `denseArr`), and reads, ROW BY ROW, the two spellings of a rectified layer that occur: the device's (two
  products into zero accumulators added, then the bias row broadcast down the rows) and the host's (product,
  bias, product). They differ in the order of the three summands only; addition of extended reals is
  commutative and associative, so the two are the same row function for all inputs, finite or not.
-/
import proofs.«121564_j12850542150068_1_alg».proof.Proof.LibRowLayers

noncomputable section

namespace Cert.SageRows

open Idealize.ShloMosaic Idealize.ShloMosaic.ValueIdx Cert.RowLayers

/-- One node's layer before the rectifier: the neighbour mean `a` through `wl`, the node's own row `h`
    through `wr`, plus the bias `b`. -/
def conv {K J : ℕ} (a h : Fin K → EReal) (wl wr : (⟨2, ![K, J]⟩ : Shape).Idx → EReal) (b : Fin J → EReal) : Fin J → EReal :=
  fun j => (∑ k : Fin K, a k * wl (ix2 k j)) + (∑ k : Fin K, h k * wr (ix2 k j)) + b j

/-- A rectified layer on whole arrays: row `p` of the result is the rectified `conv` of rows `p` of the
    neighbour means and of the features. -/
def hiddenArr {N K J : ℕ} (z : EReal) (agg h : (⟨2, ![N, K]⟩ : Shape).Idx → EReal)
    (wl wr : (⟨2, ![K, J]⟩ : Shape).Idx → EReal) (b : Fin J → EReal) : (⟨2, ![N, J]⟩ : Shape).Idx → EReal :=
  fun i => relu z (conv (rowOf agg (i 0)) (rowOf h (i 0)) wl wr b) (i 1)

/-- A dense layer on whole arrays: row `p` of the result is `dense` of row `p`. -/
def denseArr {N K J : ℕ} (h : (⟨2, ![N, K]⟩ : Shape).Idx → EReal) (w : (⟨2, ![K, J]⟩ : Shape).Idx → EReal)
    (b : Fin J → EReal) : (⟨2, ![N, J]⟩ : Shape).Idx → EReal :=
  fun i => dense (rowOf h (i 0)) w b (i 1)

theorem rowOf_hiddenArr {N K J : ℕ} (z : EReal) (agg h : (⟨2, ![N, K]⟩ : Shape).Idx → EReal)
    (wl wr : (⟨2, ![K, J]⟩ : Shape).Idx → EReal) (b : Fin J → EReal) (p : Fin N) :
    rowOf (hiddenArr z agg h wl wr b) p = relu z (conv (rowOf agg p) (rowOf h p) wl wr b) := rfl

theorem rowOf_denseArr {N K J : ℕ} (h : (⟨2, ![N, K]⟩ : Shape).Idx → EReal) (w : (⟨2, ![K, J]⟩ : Shape).Idx → EReal)
    (b : Fin J → EReal) (p : Fin N) : rowOf (denseArr h w b) p = dense (rowOf h p) w b := rfl

/-- An array is determined by its rows. -/
theorem ext_rows {α : Type} {a b : ℕ} {v w : (⟨2, ![a, b]⟩ : Shape).Idx → α} (h : ∀ p, rowOf v p = rowOf w p) : v = w :=
  funext fun i => (apply_eq_rowOf v i).trans ((congrFun (h (i 0)) (i 1)).trans (apply_eq_rowOf w i).symm)

/-- The dimension numbers "contract the left operand's axis 1 with the right operand's axis 0, no batch axes" say
    rows times columns: each field by unfolding the index maps at the literal lists. -/
macro "plain_product " d:term : tactic =>
  `(tactic| exact ⟨rfl, rfl,
      fun i q => by
        unfold DotDims.lhsIdx
        rw [dif_neg (show ¬(0 : Fin 2) ∈ ($d).lhsBatch by decide), dif_pos (show (0 : Fin 2) ∈ ($d).lhsNonContracting by decide)]
        rfl,
      fun i q => ($d).lhsIdx_val_of_single rfl i q,
      fun i q => ($d).rhsIdx_val_of_single rfl i q,
      fun i q => by
        unfold DotDims.rhsIdx
        rw [dif_neg (show ¬(1 : Fin 2) ∈ ($d).rhsBatch by decide), dif_pos (show (1 : Fin 2) ∈ ($d).rhsNonContracting by decide)]
        rfl⟩)

section Spellings
variable {a K J : ℕ} {d : DotDims ⟨2, ![a, K]⟩ ⟨2, ![K, J]⟩ ⟨2, ![a, J]⟩} {φ₁ φ₂ φ₃ φ₄ : FTy}

/-- The device's spelling of a rectified layer, on a row: the two products added, then the bias row broadcast
    down the rows, then the maximum with a splat scalar. -/
theorem rowOf_hidden_device (H : RowsTimesCols d) (prec : Option ContractPrecision)
    (agg : FVec Ideal ⟨2, ![a, K]⟩ φ₁) (h : FVec Ideal ⟨2, ![a, K]⟩ φ₂)
    (wl : FVec Ideal ⟨2, ![K, J]⟩ φ₃) (wr : FVec Ideal ⟨2, ![K, J]⟩ φ₄) (bias : FVec Ideal ⟨2, ![1, J]⟩ .f32) (z : Ideal .f32)
    (hB : (⟨2, ![1, J]⟩ : Shape).Broadcasts ⟨2, ![a, J]⟩) (p : Fin a) :
    rowOf (maximumf (addf (addf
        (matmul d prec agg wl (constant (F := Ideal) ⟨2, ![a, J]⟩ .f32 0x00000000#32))
        (matmul d prec h wr (constant (F := Ideal) ⟨2, ![a, J]⟩ .f32 0x00000000#32)))
        (broadcastTo ⟨2, ![a, J]⟩ bias hB)) (broadcast ⟨2, ![a, J]⟩ z)) p
      = relu z (conv (rowOf agg p) (rowOf h p) wl wr (rowOf bias 0)) := by
  rw [rowOf_maximumf_splat, rowOf_addf, rowOf_addf, rowOf_matmul_zero H, rowOf_matmul_zero H, rowOf_broadcastTo]
  rfl

/-- The host's spelling, on a row: product, bias vector (given a unit axis and broadcast), product, then the
    maximum with a broadcast constant. The same row function: only the order of the last two summands differs. -/
theorem rowOf_hidden_host {s0 : Shape} (H : RowsTimesCols d) (prec : Option ContractPrecision)
    (agg : FVec Ideal ⟨2, ![a, K]⟩ φ₁) (h : FVec Ideal ⟨2, ![a, K]⟩ φ₂)
    (wl : FVec Ideal ⟨2, ![K, J]⟩ φ₃) (wr : FVec Ideal ⟨2, ![K, J]⟩ φ₄) (b : FVec Ideal ⟨1, ![J]⟩ .f32) (w : BitVec 32)
    (dims0 : Fin s0.rank → Fin 2) (h0 : s0.BroadcastsInDim ⟨2, ![a, J]⟩ dims0)
    (g1 : (⟨1, ![J]⟩ : Shape).BroadcastsInDim ⟨2, ![1, J]⟩ ![1]) (g2 : (⟨2, ![1, J]⟩ : Shape).BroadcastsInDim ⟨2, ![a, J]⟩ ![0, 1]) (p : Fin a) :
    rowOf (maximumf (addf (addf
        (Host.dotGeneral (F := Ideal) d prec agg wl)
        (broadcastInDim ⟨2, ![a, J]⟩ ![0, 1] g2 (broadcastInDim ⟨2, ![1, J]⟩ ![1] g1 b)))
        (Host.dotGeneral (F := Ideal) d prec h wr))
        (broadcastInDim ⟨2, ![a, J]⟩ dims0 h0 (constant (F := Ideal) s0 .f32 w))) p
      = relu (Ideal.ofBits .f32 w) (conv (rowOf agg p) (rowOf h p) wl wr (fun j => b (ix1 j))) := by
  rw [rowOf_maximumf_const, rowOf_addf, rowOf_addf, rowOf_dotGeneral H, rowOf_dotGeneral H, rowOf_broadcastInDim_vec]
  refine congrArg (relu (Ideal.ofBits .f32 w)) (funext fun j => ?_)
  unfold conv
  exact add_right_comm _ _ _

end Spellings

end Cert.SageRows

end
-- ==== Proof.RefNet.lean ====
/-
  The reference network as one function of its ten arguments, and its rows.

  The reference computes, on the host, for every node the mean of its in-neighbours' feature rows — a gather
  of the source rows, a scatter-add at the target rows, a product with the reciprocal in-degree (zero for a
  node without in-neighbours) —, a rectified layer on the means and the features, the same mean of the hidden
  rows, a second rectified layer, and a dense layer. This file names the two mean aggregations as functions
  of a feature array and the edge list (`meanAgg128`, `meanAgg256`: whatever the edge list holds, they are
  one function of it, and nothing below opens them), writes the reference's result over them, and reads the
  three layers row by row as `conv` / `dense`.
-/
import proofs.«121564_j12850542150068_1_alg».proof.Proof.RefRun
import proofs.«121564_j12850542150068_1_alg».proof.Proof.LibSageRows
import Idealize.ShloMosaic.Lib.ValueLayout

set_option maxRecDepth 16384

noncomputable section

namespace Cert.ReferenceIdeal.Net

open Idealize.ShloMosaic Idealize.ShloMosaic.TcCoe Idealize.SL.Sem Idealize.ShloMosaic.ValueIdx
open Cert.ReferenceIdeal Cert.ReferenceIdeal.Gen Cert.RowLayers Cert.SageRows

/-- The edge list: row 0 the source node of every edge, row 1 its target node. -/
abbrev Edges : Type := S2x800000.Idx → BitVec 32

/-- The rectifier's threshold: the zero word read as an extended real. -/
abbrev zero : EReal := Ideal.ofBits .f32 0x00000000#32

/-- The edges' target nodes, as a column of scatter indices. -/
def dstCol (ei : Edges) : S800000x1.Idx → BitVec 32 :=
  broadcastInDim S800000x1 ![0] bcast_S800000_S800000x1_0
    (shapeCast S800000 (extractStridedSlice S1x800000 ![1, 0] ei slices_S2x800000_S1x800000_1_0) shapeCasts_S1x800000_S800000)

/-- The edges' source nodes as the program reads them. -/
def srcRow (ei : Edges) : S800000.Idx → BitVec 32 :=
  shapeCast S800000 (extractStridedSlice S1x800000 ![0, 0] ei slices_S2x800000_S1x800000_0_0) shapeCasts_S1x800000_S800000

/-- The source nodes as a column of gather indices, a negative entry counted from the end. -/
def srcCol (ei : Edges) : S800000x1.Idx → BitVec 32 :=
  broadcastInDim S800000x1 ![0] bcast_S800000_S800000x1_0
    (select (cmpi .slt (srcRow ei) (broadcastInDim S800000 ![] bcast_S_S800000 (constantI S_ 32 0#32)))
      (addi (srcRow ei) (broadcastInDim S800000 ![] bcast_S_S800000 (constantI S_ 32 50000#32))) (srcRow ei))

/-- Every node's in-degree: ones scattered at the target nodes. -/
def inDeg (ei : Edges) : FVec Ideal S50000 .f32 :=
  Host.scatterAdd (F := Ideal) scatter_S50000_S800000x1_S800000_n_0_0_1
    (broadcastInDim S50000 ![] bcast_S_S50000 (constant (F := Ideal) S_ .f32 0x00000000#32)) (dstCol ei)
    (broadcastInDim S800000 ![] bcast_S_S800000 (constant (F := Ideal) S_ .f32 0x3F800000#32))

/-- The reciprocal in-degree, zero where the in-degree is not positive. -/
def invDeg (ei : Edges) : FVec Ideal S50000 .f32 :=
  select (cmpf (F := Ideal) .ogt (inDeg ei) (broadcastInDim S50000 ![] bcast_S_S50000 (constant (F := Ideal) S_ .f32 0x00000000#32)))
    (Host.divf (F := Ideal) (broadcastInDim S50000 ![] bcast_S_S50000 (constant (F := Ideal) S_ .f32 0x3F800000#32))
      (maximumf (inDeg ei) (broadcastInDim S50000 ![] bcast_S_S50000 (constant (F := Ideal) S_ .f32 0x3F800000#32))))
    (broadcastInDim S50000 ![] bcast_S_S50000 (id (constant (F := Ideal) S_ .f32 0x00000000#32)))

/-- The mean of the in-neighbours' rows of a 128-column feature array. -/
def meanAgg128 (x : FVec Ideal S50000x128 .f32) (ei : Edges) : FVec Ideal S50000x128 .f32 :=
  mulf (F := Ideal)
    (Host.scatterAdd (F := Ideal) scatter_S50000x128_S800000x1_S800000x128_1_0_0_1
      (broadcastInDim S50000x128 ![] bcast_S_S50000x128 (constant (F := Ideal) S_ .f32 0x00000000#32)) (dstCol ei)
      (Host.gather gather_S50000x128_S800000x1_S800000x128_1_0_n_n_0_1_1128 x (srcCol ei)))
    (broadcastInDim S50000x128 ![0, 1] bcast_S50000x1_S50000x128_0_1 (broadcastInDim S50000x1 ![0] bcast_S50000_S50000x1_0 (invDeg ei)))

/-- The mean of the in-neighbours' rows of a 256-column feature array. -/
def meanAgg256 (h : FVec Ideal S50000x256 .f32) (ei : Edges) : FVec Ideal S50000x256 .f32 :=
  mulf (F := Ideal)
    (Host.scatterAdd (F := Ideal) scatter_S50000x256_S800000x1_S800000x256_1_0_0_1
      (broadcastInDim S50000x256 ![] bcast_S_S50000x256 (constant (F := Ideal) S_ .f32 0x00000000#32)) (dstCol ei)
      (Host.gather gather_S50000x256_S800000x1_S800000x256_1_0_n_n_0_1_1256 h (srcCol ei)))
    (broadcastInDim S50000x256 ![0, 1] bcast_S50000x1_S50000x256_0_1 (broadcastInDim S50000x1 ![0] bcast_S50000_S50000x1_0 (invDeg ei)))

/-- The first rectified layer as the reference spells it. -/
def hostHidden1 (x : FVec Ideal S50000x128 .f32) (ei : Edges) (wl : FVec Ideal S128x256 .f32) (b : FVec Ideal S256 .f32) (wr : FVec Ideal S128x256 .f32) :
    FVec Ideal S50000x256 .f32 :=
  maximumf (F := Ideal) (addf (addf
      (Host.dotGeneral (F := Ideal) dot_S50000x128_S128x256_S50000x256_1_0_0_1_n_n none (meanAgg128 x ei) wl)
      (broadcastInDim S50000x256 ![0, 1] bcast_S1x256_S50000x256_0_1 (broadcastInDim S1x256 ![1] bcast_S256_S1x256_1 b)))
      (Host.dotGeneral (F := Ideal) dot_S50000x128_S128x256_S50000x256_1_0_0_1_n_n none x wr))
    (broadcastInDim S50000x256 ![] bcast_S_S50000x256 (constant (F := Ideal) S_ .f32 0x00000000#32))

/-- The second rectified layer as the reference spells it. -/
def hostHidden2 (h : FVec Ideal S50000x256 .f32) (ei : Edges) (wl : FVec Ideal S256x256 .f32) (b : FVec Ideal S256 .f32) (wr : FVec Ideal S256x256 .f32) :
    FVec Ideal S50000x256 .f32 :=
  maximumf (F := Ideal) (addf (addf
      (Host.dotGeneral (F := Ideal) dot_S50000x256_S256x256_S50000x256_1_0_0_1_n_n none (meanAgg256 h ei) wl)
      (broadcastInDim S50000x256 ![0, 1] bcast_S1x256_S50000x256_0_1 (broadcastInDim S1x256 ![1] bcast_S256_S1x256_1 b)))
      (Host.dotGeneral (F := Ideal) dot_S50000x256_S256x256_S50000x256_1_0_0_1_n_n none h wr))
    (broadcastInDim S50000x256 ![] bcast_S_S50000x256 (constant (F := Ideal) S_ .f32 0x00000000#32))

/-- The last dense layer as the reference spells it. -/
def hostOut (h : FVec Ideal S50000x256 .f32) (w : FVec Ideal S256x2 .f32) (b : FVec Ideal S2 .f32) : FVec Ideal S50000x2 .f32 :=
  addf (F := Ideal) (Host.dotGeneral (F := Ideal) dot_S50000x256_S256x2_S50000x2_1_0_0_1_n_n none h w)
    (broadcastInDim S50000x2 ![0, 1] bcast_S1x2_S50000x2_0_1 (broadcastInDim S1x2 ![1] bcast_S2_S1x2_1 b))

/-- The reference's result term is the three layers composed. -/
theorem res_eq (m : (ℓ : Loc nD τ sig) → Buf (Elt Ideal) ℓ) (c : Dev nD) :
    ValueP.res_main_v57 (F := Ideal) m c
      = hostOut (hostHidden2 (hostHidden1 (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
          (m ((c.tc : Thread nD τ).loc main_arg1)) (m ((c.tc : Thread nD τ).loc main_arg5)) (m ((c.tc : Thread nD τ).loc main_arg6))
          (m ((c.tc : Thread nD τ).loc main_arg7)))
        (m ((c.tc : Thread nD τ).loc main_arg8)) (m ((c.tc : Thread nD τ).loc main_arg9)) := by
  unfold ValueP.res_main_v57
  rfl

/-! ## The layers, row by row -/

theorem dims_128_256 : RowsTimesCols dot_S50000x128_S128x256_S50000x256_1_0_0_1_n_n := by
  plain_product dot_S50000x128_S128x256_S50000x256_1_0_0_1_n_n
theorem dims_256_256 : RowsTimesCols dot_S50000x256_S256x256_S50000x256_1_0_0_1_n_n := by
  plain_product dot_S50000x256_S256x256_S50000x256_1_0_0_1_n_n
theorem dims_256_2 : RowsTimesCols dot_S50000x256_S256x2_S50000x2_1_0_0_1_n_n := by
  plain_product dot_S50000x256_S256x2_S50000x2_1_0_0_1_n_n

/-- The reference's first layer is the rectified `conv` of the means and the features. -/
theorem hostHidden1_eq (x : FVec Ideal S50000x128 .f32) (ei : Edges) (wl : FVec Ideal S128x256 .f32) (b : FVec Ideal S256 .f32) (wr : FVec Ideal S128x256 .f32) :
    hostHidden1 x ei wl b wr = hiddenArr (N := 50000) (K := 128) (J := 256) zero (meanAgg128 x ei) x wl wr (fun j => b (ix1 j)) :=
  ext_rows fun p => by
    unfold hostHidden1
    exact rowOf_hidden_host dims_128_256 none _ _ _ _ _ _ _ _ _ _ p

/-- The reference's second layer likewise. -/
theorem hostHidden2_eq (h : FVec Ideal S50000x256 .f32) (ei : Edges) (wl : FVec Ideal S256x256 .f32) (b : FVec Ideal S256 .f32) (wr : FVec Ideal S256x256 .f32) :
    hostHidden2 h ei wl b wr = hiddenArr (N := 50000) (K := 256) (J := 256) zero (meanAgg256 h ei) h wl wr (fun j => b (ix1 j)) :=
  ext_rows fun p => by
    unfold hostHidden2
    exact rowOf_hidden_host dims_256_256 none _ _ _ _ _ _ _ _ _ _ p

/-- The reference's last layer is `dense` row by row. -/
theorem hostOut_eq (h : FVec Ideal S50000x256 .f32) (w : FVec Ideal S256x2 .f32) (b : FVec Ideal S2 .f32) :
    hostOut h w b = denseArr (N := 50000) (K := 256) (J := 2) h w (fun j => b (ix1 j)) :=
  ext_rows fun p => by
    unfold hostOut
    exact rowOf_dense_host dims_256_2 none _ _ _ _ _ p

/-! ## The network as one function of the arguments -/

/-- The whole network on the ten arguments: the first rectified layer on the neighbour means of the features,
    the second on the neighbour means of the hidden rows, then the dense layer; each bias a vector. -/
def net (x : FVec Ideal S50000x128 .f32) (ei : Edges) (w1l : FVec Ideal S128x256 .f32) (b1 : FVec Ideal S256 .f32) (w1r : FVec Ideal S128x256 .f32)
    (w2l : FVec Ideal S256x256 .f32) (b2 : FVec Ideal S256 .f32) (w2r : FVec Ideal S256x256 .f32) (w3 : FVec Ideal S256x2 .f32) (b3 : FVec Ideal S2 .f32) :
    FVec Ideal S50000x2 .f32 :=
  denseArr (N := 50000) (K := 256) (J := 2)
    (hiddenArr (N := 50000) (K := 256) (J := 256) zero
      (meanAgg256 (hiddenArr (N := 50000) (K := 128) (J := 256) zero (meanAgg128 x ei) x w1l w1r (fun j => b1 (ix1 j))) ei)
      (hiddenArr (N := 50000) (K := 128) (J := 256) zero (meanAgg128 x ei) x w1l w1r (fun j => b1 (ix1 j))) w2l w2r (fun j => b2 (ix1 j)))
    w3 (fun j => b3 (ix1 j))

/-- The reference's three layers composed are the network. -/
theorem host_eq_net (x : FVec Ideal S50000x128 .f32) (ei : Edges) (w1l : FVec Ideal S128x256 .f32) (b1 : FVec Ideal S256 .f32) (w1r : FVec Ideal S128x256 .f32)
    (w2l : FVec Ideal S256x256 .f32) (b2 : FVec Ideal S256 .f32) (w2r : FVec Ideal S256x256 .f32) (w3 : FVec Ideal S256x2 .f32) (b3 : FVec Ideal S2 .f32) :
    hostOut (hostHidden2 (hostHidden1 x ei w1l b1 w1r) ei w2l b2 w2r) w3 b3 = net x ei w1l b1 w1r w2l b2 w2r w3 b3 := by
  rw [hostOut_eq, hostHidden2_eq, hostHidden1_eq]
  rfl

/-- A bias vector given a unit leading axis, read back as the one row it is. -/
theorem rowOf_row {n : ℕ} (b : FVec Ideal ⟨1, ![n]⟩ .f32) (h : (⟨1, ![n]⟩ : Shape).ShapeCasts ⟨2, ![1, n]⟩) :
    rowOf (shapeCast ⟨2, ![1, n]⟩ b h) 0 = fun j => b (ix1 j) :=
  funext fun j => shapeCast_a_1a_apply b h 0 j

end Cert.ReferenceIdeal.Net

end
-- ==== Proof.KernelRun.lean ====
/-
  The device program's run, with its result array named.

  The program is six segments in a row — three stretches of host operations, the first region, one more stretch,
  the second region — and the contents of every buffer at each boundary are a fold from the launch memory
  (`W0 … W6`). Its run ends with every unscoped buffer at the last boundary's contents; read at the arguments
  that says they are unchanged, and read at the result buffer it says the result is `W6` there. The run below
  states both; the launch, the chain of thread states and the reading of the final state are the frame's own.
-/
import proofs.«121564_j12850542150068_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Named

end
-- ==== Proof.KernelBlocks.lean ====
/-
  What each of the two device regions leaves in its result array, as one function of the arrays the region finds.

  Both regions walk the 50000 node rows in 25 blocks of 2000 rows. At a block the first region computes, row by
  row, the rectified layer of the block's rows of neighbour means and of features; the second computes a
  rectified layer and then a dense layer on it. The weight matrices and bias rows are single blocks, the same at
  every point. Since a row of the result depends on the same row of the two tall inputs only, block `t` of the
  result is block `t` of one whole-array function, and the 25 blocks tile the array.
-/
import proofs.«121564_j12850542150068_1_alg».proof.Proof.Gen.KernelIdeal.Frame
import proofs.«121564_j12850542150068_1_alg».proof.Proof.LibSageRows

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.RowLayers Cert.SageRows
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The rectifier's threshold: the zero word read as an extended real. -/
abbrev zero : EReal := Ideal.ofBits .f32 0x00000000#32

theorem dims_128_256 : RowsTimesCols dot_S2000x128_S128x256_S2000x256_1_0_0_1_n_n := by
  plain_product dot_S2000x128_S128x256_S2000x256_1_0_0_1_n_n

/-! ## The first region -/

/-- The first region's body on a block, row by row: the rectified layer of the block's rows. -/
theorem out0_5_rows (x0 x1 : Vec Ideal S2000x128 .f32) (x2 : Vec Ideal S128x256 .f32) (x3 : Vec Ideal S1x256 .f32)
    (x4 : Vec Ideal S128x256 .f32) (p : Fin 2000) :
    rowOf (out0_5 (F := Ideal) x0 x1 x2 x3 x4) p = relu zero (conv (rowOf x0 p) (rowOf x1 p) x2 x4 (rowOf x3 0)) := by
  unfold out0_5
  rw [View.canon_unit_zero hz]
  simp only [View.ld_unit_zero (S := S2000x128) hz, View.ld_unit_zero (S := S128x256) hz, View.ld_unit_zero (S := S1x256) hz]
  unfold k0_pay1
  rw [shapeCast_self, shapeCast_self]
  exact rowOf_hidden_device dims_128_256 none _ _ _ _ _ _ _ p

/-- The first region's result array, from the arrays it finds: the rectified layer of the neighbour means
    and the features, with the bias read off its one-row array. -/
def hidden1 (c : Dev nD) : S50000x256.Idx → EReal :=
  hiddenArr (N := 50000) (K := 128) (J := 256) zero (V c main_v27 : S50000x128.Idx → EReal) (V c main_arg0 : S50000x128.Idx → EReal)
    (V c main_arg2 : S128x256.Idx → EReal) (V c main_arg4 : S128x256.Idx → EReal) (rowOf (V c main_v28 : S1x256.Idx → EReal) 0)

/-- The printed index maps, decided over the grid: the two tall inputs move with the output down the rows, the
    output's block row is the point's number, every other coordinate stays at block 0. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) = t.val :=
  (by decide +kernel : ∀ t : Fin grid0.N, _)

/-- What point `t` writes back is block `t` of the whole-array layer. -/
theorem flushed0 (c : Dev nD) (t : Fin cfg0.N) :
    (dat0 V c).flushed 5 t = ((cfg0.win 5).blk t).view.read (Elt Ideal) (hidden1 V c) := by
  show (cfg0.win 5).cut (grid0.coords t) ((dat0 V c).after 5 t) = _
  rw [after0_5]
  obtain ⟨e00, e01, e10, e11, e20, e21, e30, e31, e40, e41, e51, e50⟩ := idx_facts0 t
  funext j
  show out0_5 (F := Ideal) (iblk0 V c 0 t) (iblk0 V c 1 t) (iblk0 V c 2 t) (iblk0 V c 3 t) (iblk0 V c 4 t) j
      = hidden1 V c (((cfg0.win 5).blk t).view.emb j)
  refine (apply_eq_rowOf (out0_5 (F := Ideal) (iblk0 V c 0 t) (iblk0 V c 1 t) (iblk0 V c 2 t) (iblk0 V c 3 t) (iblk0 V c 4 t)) j).trans ?_
  refine (congrFun (out0_5_rows (iblk0 V c 0 t) (iblk0 V c 1 t) (iblk0 V c 2 t) (iblk0 V c 3 t) (iblk0 V c 4 t) (j 0)) (j 1)).trans ?_
  have h0 : rowOf (iblk0 V c 0 t) (j 0) = rowOf (V c main_v27 : S50000x128.Idx → EReal) ((((cfg0.win 5).blk t).view.emb j) 0) :=
    funext fun k => by
      show V c main_v27 (((cfg0.win 0).blk t).view.emb (ix2 (j 0) k)) = V c main_v27 (ix2 ((((cfg0.win 5).blk t).view.emb j) 0) k)
      refine congrArg (V c main_v27) (funext fun a => Fin.ext ?_)
      match a with
      | ⟨0, _⟩ => show win0_0.index t (0 : Fin 2) * 2000 + 1 * (j 0).val = win0_5.index t (0 : Fin 2) * 2000 + 1 * (j 0).val; omega
      | ⟨1, _⟩ => show win0_0.index t (1 : Fin 2) * 128 + 1 * k.val = k.val; omega
  have h1 : rowOf (iblk0 V c 1 t) (j 0) = rowOf (V c main_arg0 : S50000x128.Idx → EReal) ((((cfg0.win 5).blk t).view.emb j) 0) :=
    funext fun k => by
      show V c main_arg0 (((cfg0.win 1).blk t).view.emb (ix2 (j 0) k)) = V c main_arg0 (ix2 ((((cfg0.win 5).blk t).view.emb j) 0) k)
      refine congrArg (V c main_arg0) (funext fun a => Fin.ext ?_)
      match a with
      | ⟨0, _⟩ => show win0_1.index t (0 : Fin 2) * 2000 + 1 * (j 0).val = win0_5.index t (0 : Fin 2) * 2000 + 1 * (j 0).val; omega
      | ⟨1, _⟩ => show win0_1.index t (1 : Fin 2) * 128 + 1 * k.val = k.val; omega
  have h2 : (iblk0 V c 2 t : S128x256.Idx → EReal) = V c main_arg2 :=
    funext fun y => by
      show V c main_arg2 (((cfg0.win 2).blk t).view.emb y) = V c main_arg2 y
      refine congrArg (V c main_arg2) (funext fun a => Fin.ext ?_)
      match a with
      | ⟨0, _⟩ => show win0_2.index t (0 : Fin 2) * 128 + 1 * (y 0).val = (y 0).val; omega
      | ⟨1, _⟩ => show win0_2.index t (1 : Fin 2) * 256 + 1 * (y 1).val = (y 1).val; omega
  have h4 : (iblk0 V c 4 t : S128x256.Idx → EReal) = V c main_arg4 :=
    funext fun y => by
      show V c main_arg4 (((cfg0.win 4).blk t).view.emb y) = V c main_arg4 y
      refine congrArg (V c main_arg4) (funext fun a => Fin.ext ?_)
      match a with
      | ⟨0, _⟩ => show win0_4.index t (0 : Fin 2) * 128 + 1 * (y 0).val = (y 0).val; omega
      | ⟨1, _⟩ => show win0_4.index t (1 : Fin 2) * 256 + 1 * (y 1).val = (y 1).val; omega
  have h3 : (iblk0 V c 3 t : S1x256.Idx → EReal) = V c main_v28 :=
    funext fun y => by
      show V c main_v28 (((cfg0.win 3).blk t).view.emb y) = V c main_v28 y
      refine congrArg (V c main_v28) (funext fun a => Fin.ext ?_)
      match a with
      | ⟨0, _⟩ => show win0_3.index t (0 : Fin 2) * 1 + 1 * (y 0).val = (y 0).val; omega
      | ⟨1, _⟩ => show win0_3.index t (1 : Fin 2) * 256 + 1 * (y 1).val = (y 1).val; omega
  have hj : (j 1 : Fin 256) = (((cfg0.win 5).blk t).view.emb j) 1 :=
    Fin.ext (by show (j 1).val = win0_5.index t (1 : Fin 2) * 256 + 1 * (j 1).val; omega)
  show relu zero (conv (rowOf (iblk0 V c 0 t) (j 0)) (rowOf (iblk0 V c 1 t) (j 0)) (iblk0 V c 2 t : S128x256.Idx → EReal) (iblk0 V c 4 t : S128x256.Idx → EReal)
      (rowOf (iblk0 V c 3 t : S1x256.Idx → EReal) 0)) (j 1 : Fin 256)
    = relu zero (conv (rowOf (V c main_v27 : S50000x128.Idx → EReal) ((((cfg0.win 5).blk t).view.emb j) 0))
        (rowOf (V c main_arg0 : S50000x128.Idx → EReal) ((((cfg0.win 5).blk t).view.emb j) 0)) (V c main_arg2 : S128x256.Idx → EReal)
        (V c main_arg4 : S128x256.Idx → EReal) (rowOf (V c main_v28 : S1x256.Idx → EReal) 0)) ((((cfg0.win 5).blk t).view.emb j) 1)
  rw [h0, h1, h2, h4, h3, hj]

/-- An index of the result array is in point `t`'s block iff each coordinate is in the block's range. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v29).slice (win0_5.rect t)).set ↔ _
  rw [View.set_slice_whole, Rect.mem_set_unit]
  exact Iff.rfl

/-- The 25 blocks tile the result array: row `r` lies in the block of point `r / 2000`. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have ht : (i 0).val / 2000 < cfg0.N := by rw [show cfg0.N = 25 from N_0]; omega
  obtain ⟨e00, e01, e10, e11, e20, e21, e30, e31, e40, e41, e51, e50⟩ := idx_facts0 ⟨(i 0).val / 2000, ht⟩
  have e50' : win0_5.index ⟨(i 0).val / 2000, ht⟩ (0 : Fin 2) = (i 0).val / 2000 := e50
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    omega

/-- The first region's result array after the region is the whole-array layer of the arrays it found. -/
theorem final0 (c : Dev nD) : (dat0 V c).arrAt 5 cfg0.N = hidden1 V c :=
  (dat0 V c).arrAt_eq_of_cover 5 (hidden1 V c) (fun t _ => flushed0 V c t) cover0

/-! ## The second region -/

theorem dims_256_256 : RowsTimesCols dot_S2000x256_S256x256_S2000x256_1_0_0_1_n_n := by
  plain_product dot_S2000x256_S256x256_S2000x256_1_0_0_1_n_n
theorem dims_256_2 : RowsTimesCols dot_S2000x256_S256x2_S2000x2_1_0_0_1_n_n := by
  plain_product dot_S2000x256_S256x2_S2000x2_1_0_0_1_n_n

/-- The second region's body on a block, row by row: the dense layer of the rectified layer of the block's rows. -/
theorem out1_7_rows (x0 x1 : Vec Ideal S2000x256 .f32) (x2 : Vec Ideal S256x256 .f32) (x3 : Vec Ideal S1x256 .f32)
    (x4 : Vec Ideal S256x256 .f32) (x5 : Vec Ideal S256x2 .f32) (x6 : Vec Ideal S1x2 .f32) (p : Fin 2000) :
    rowOf (out1_7 (F := Ideal) x0 x1 x2 x3 x4 x5 x6) p
      = dense (relu zero (conv (rowOf x0 p) (rowOf x1 p) x2 x4 (rowOf x3 0))) x5 (rowOf x6 0) := by
  unfold out1_7
  rw [View.canon_unit_zero hz]
  simp only [View.ld_unit_zero (S := S2000x256) hz, View.ld_unit_zero (S := S256x256) hz, View.ld_unit_zero (S := S1x256) hz,
    View.ld_unit_zero (S := S256x2) hz, View.ld_unit_zero (S := S1x2) hz]
  unfold k1_pay1
  simp only [shapeCast_self]
  refine (rowOf_dense_device dims_256_2 none _ _ _ _ p).trans ?_
  exact congrArg (fun r => dense r x5 (rowOf x6 0)) (rowOf_hidden_device dims_256_256 none _ _ _ _ _ _ _ p)

/-- The second region's result array, from the arrays it finds. -/
def out2 (c : Dev nD) : S50000x2.Idx → EReal :=
  denseArr (N := 50000) (K := 256) (J := 2)
    (hiddenArr (N := 50000) (K := 256) (J := 256) zero (V c main_v41 : S50000x256.Idx → EReal) (V c main_v29 : S50000x256.Idx → EReal)
      (V c main_arg5 : S256x256.Idx → EReal) (V c main_arg7 : S256x256.Idx → EReal) (rowOf (V c main_v42 : S1x256.Idx → EReal) 0))
    (V c main_arg8 : S256x2.Idx → EReal) (rowOf (V c main_v43 : S1x2.Idx → EReal) 0)

/-- The printed index maps of the second region, decided over the grid. -/
theorem idx_facts1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) = t.val :=
  (by decide +kernel : ∀ t : Fin grid1.N, _)

/-- What point `t` of the second region writes back is block `t` of the whole-array function. -/
theorem flushed1 (c : Dev nD) (t : Fin cfg1.N) :
    (dat1 V c).flushed 7 t = ((cfg1.win 7).blk t).view.read (Elt Ideal) (out2 V c) := by
  show (cfg1.win 7).cut (grid1.coords t) ((dat1 V c).after 7 t) = _
  rw [after1_7]
  obtain ⟨e00, e01, e10, e11, e20, e21, e30, e31, e40, e41, e50, e51, e60, e61, e71, e70⟩ := idx_facts1 t
  funext j
  show out1_7 (F := Ideal) (iblk1 V c 0 t) (iblk1 V c 1 t) (iblk1 V c 2 t) (iblk1 V c 3 t) (iblk1 V c 4 t) (iblk1 V c 5 t) (iblk1 V c 6 t) j
      = out2 V c (((cfg1.win 7).blk t).view.emb j)
  refine (apply_eq_rowOf (out1_7 (F := Ideal) (iblk1 V c 0 t) (iblk1 V c 1 t) (iblk1 V c 2 t) (iblk1 V c 3 t) (iblk1 V c 4 t) (iblk1 V c 5 t) (iblk1 V c 6 t)) j).trans ?_
  refine (congrFun (out1_7_rows (iblk1 V c 0 t) (iblk1 V c 1 t) (iblk1 V c 2 t) (iblk1 V c 3 t) (iblk1 V c 4 t) (iblk1 V c 5 t) (iblk1 V c 6 t) (j 0)) (j 1)).trans ?_
  have h0 : rowOf (iblk1 V c 0 t) (j 0) = rowOf (V c main_v41 : S50000x256.Idx → EReal) ((((cfg1.win 7).blk t).view.emb j) 0) :=
    funext fun k => by
      show V c main_v41 (((cfg1.win 0).blk t).view.emb (ix2 (j 0) k)) = V c main_v41 (ix2 ((((cfg1.win 7).blk t).view.emb j) 0) k)
      refine congrArg (V c main_v41) (funext fun a => Fin.ext ?_)
      match a with
      | ⟨0, _⟩ => show win1_0.index t (0 : Fin 2) * 2000 + 1 * (j 0).val = win1_7.index t (0 : Fin 2) * 2000 + 1 * (j 0).val; omega
      | ⟨1, _⟩ => show win1_0.index t (1 : Fin 2) * 256 + 1 * k.val = k.val; omega
  have h1 : rowOf (iblk1 V c 1 t) (j 0) = rowOf (V c main_v29 : S50000x256.Idx → EReal) ((((cfg1.win 7).blk t).view.emb j) 0) :=
    funext fun k => by
      show V c main_v29 (((cfg1.win 1).blk t).view.emb (ix2 (j 0) k)) = V c main_v29 (ix2 ((((cfg1.win 7).blk t).view.emb j) 0) k)
      refine congrArg (V c main_v29) (funext fun a => Fin.ext ?_)
      match a with
      | ⟨0, _⟩ => show win1_1.index t (0 : Fin 2) * 2000 + 1 * (j 0).val = win1_7.index t (0 : Fin 2) * 2000 + 1 * (j 0).val; omega
      | ⟨1, _⟩ => show win1_1.index t (1 : Fin 2) * 256 + 1 * k.val = k.val; omega
  have h2 : (iblk1 V c 2 t : S256x256.Idx → EReal) = V c main_arg5 :=
    funext fun y => by
      show V c main_arg5 (((cfg1.win 2).blk t).view.emb y) = V c main_arg5 y
      refine congrArg (V c main_arg5) (funext fun a => Fin.ext ?_)
      match a with
      | ⟨0, _⟩ => show win1_2.index t (0 : Fin 2) * 256 + 1 * (y 0).val = (y 0).val; omega
      | ⟨1, _⟩ => show win1_2.index t (1 : Fin 2) * 256 + 1 * (y 1).val = (y 1).val; omega
  have h3 : (iblk1 V c 3 t : S1x256.Idx → EReal) = V c main_v42 :=
    funext fun y => by
      show V c main_v42 (((cfg1.win 3).blk t).view.emb y) = V c main_v42 y
      refine congrArg (V c main_v42) (funext fun a => Fin.ext ?_)
      match a with
      | ⟨0, _⟩ => show win1_3.index t (0 : Fin 2) * 1 + 1 * (y 0).val = (y 0).val; omega
      | ⟨1, _⟩ => show win1_3.index t (1 : Fin 2) * 256 + 1 * (y 1).val = (y 1).val; omega
  have h4 : (iblk1 V c 4 t : S256x256.Idx → EReal) = V c main_arg7 :=
    funext fun y => by
      show V c main_arg7 (((cfg1.win 4).blk t).view.emb y) = V c main_arg7 y
      refine congrArg (V c main_arg7) (funext fun a => Fin.ext ?_)
      match a with
      | ⟨0, _⟩ => show win1_4.index t (0 : Fin 2) * 256 + 1 * (y 0).val = (y 0).val; omega
      | ⟨1, _⟩ => show win1_4.index t (1 : Fin 2) * 256 + 1 * (y 1).val = (y 1).val; omega
  have h5 : (iblk1 V c 5 t : S256x2.Idx → EReal) = V c main_arg8 :=
    funext fun y => by
      show V c main_arg8 (((cfg1.win 5).blk t).view.emb y) = V c main_arg8 y
      refine congrArg (V c main_arg8) (funext fun a => Fin.ext ?_)
      match a with
      | ⟨0, _⟩ => show win1_5.index t (0 : Fin 2) * 256 + 1 * (y 0).val = (y 0).val; omega
      | ⟨1, _⟩ => show win1_5.index t (1 : Fin 2) * 2 + 1 * (y 1).val = (y 1).val; omega
  have h6 : (iblk1 V c 6 t : S1x2.Idx → EReal) = V c main_v43 :=
    funext fun y => by
      show V c main_v43 (((cfg1.win 6).blk t).view.emb y) = V c main_v43 y
      refine congrArg (V c main_v43) (funext fun a => Fin.ext ?_)
      match a with
      | ⟨0, _⟩ => show win1_6.index t (0 : Fin 2) * 1 + 1 * (y 0).val = (y 0).val; omega
      | ⟨1, _⟩ => show win1_6.index t (1 : Fin 2) * 2 + 1 * (y 1).val = (y 1).val; omega
  have hj : (j 1 : Fin 2) = (((cfg1.win 7).blk t).view.emb j) 1 :=
    Fin.ext (by show (j 1).val = win1_7.index t (1 : Fin 2) * 2 + 1 * (j 1).val; omega)
  show dense (relu zero (conv (rowOf (iblk1 V c 0 t) (j 0)) (rowOf (iblk1 V c 1 t) (j 0)) (iblk1 V c 2 t : S256x256.Idx → EReal)
        (iblk1 V c 4 t : S256x256.Idx → EReal) (rowOf (iblk1 V c 3 t : S1x256.Idx → EReal) 0)))
      (iblk1 V c 5 t : S256x2.Idx → EReal) (rowOf (iblk1 V c 6 t : S1x2.Idx → EReal) 0) (j 1 : Fin 2)
    = dense (relu zero (conv (rowOf (V c main_v41 : S50000x256.Idx → EReal) ((((cfg1.win 7).blk t).view.emb j) 0))
          (rowOf (V c main_v29 : S50000x256.Idx → EReal) ((((cfg1.win 7).blk t).view.emb j) 0)) (V c main_arg5 : S256x256.Idx → EReal)
          (V c main_arg7 : S256x256.Idx → EReal) (rowOf (V c main_v42 : S1x256.Idx → EReal) 0)))
        (V c main_arg8 : S256x2.Idx → EReal) (rowOf (V c main_v43 : S1x2.Idx → EReal) 0) ((((cfg1.win 7).blk t).view.emb j) 1)
  rw [h0, h1, h2, h4, h3, h5, h6, hj]

theorem mem_blk1 (t : Fin cfg1.N) (i : S50000x2.Idx) :
    i ∈ ((cfg1.win 7).blk t).view.set ↔ ∀ a : Fin 2, win1_7.index t a * S2000x2.size a ≤ (i a).val ∧ (i a).val < win1_7.index t a * S2000x2.size a + S2000x2.size a := by
  show i ∈ ((View.whole main_v44).slice (win1_7.rect t)).set ↔ _
  rw [View.set_slice_whole, Rect.mem_set_unit]
  exact Iff.rfl

/-- The 25 blocks tile the result array. -/
theorem cover1 (i : S50000x2.Idx) : ∃ t : Fin cfg1.N, (cfg1.win 7).flush t = true ∧ i ∈ ((cfg1.win 7).blk t).view.set := by
  have hi0 : (i 0).val < 50000 := (i 0).isLt
  have hi1 : (i 1).val < 2 := (i 1).isLt
  have ht : (i 0).val / 2000 < cfg1.N := by rw [show cfg1.N = 25 from N_1]; omega
  obtain ⟨e00, e01, e10, e11, e20, e21, e30, e31, e40, e41, e50, e51, e60, e61, e71, e70⟩ := idx_facts1 ⟨(i 0).val / 2000, ht⟩
  have e70' : win1_7.index ⟨(i 0).val / 2000, ht⟩ (0 : Fin 2) = (i 0).val / 2000 := e70
  refine ⟨⟨(i 0).val / 2000, ht⟩, flush1_7 _, ?_⟩
  rw [mem_blk1]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    omega
  | ⟨1, _⟩ =>
    show win1_7.index ⟨(i 0).val / 2000, ht⟩ (1 : Fin 2) * 2 ≤ (i 1).val ∧ (i 1).val < win1_7.index ⟨(i 0).val / 2000, ht⟩ (1 : Fin 2) * 2 + 2
    omega

/-- The second region's result array after the region is the whole-array function of the arrays it found. -/
theorem final1 (c : Dev nD) : (dat1 V c).arrAt 7 cfg1.N = out2 V c :=
  (dat1 V c).arrAt_eq_of_cover 7 (out2 V c) (fun t _ => flushed1 V c t) cover1

end Cert.KernelIdeal.Blocks

end
-- ==== Proof.KernelStages.lean ====
/-
  The contents of the buffers the two regions read, and the device program's result as the network.

  Before the first region the host has computed the neighbour means of the features (a gather, a scatter-add,
  a product with the reciprocal in-degrees) and given the first bias a unit leading axis; the weights are the
  arguments themselves. Between the regions it computes the neighbour means of the first region's result and
  reshapes the other two biases. Each of these buffers is read here as a term of the launch memory, the
  aggregations as the same two functions `meanAgg128` / `meanAgg256` of a feature array and the edge list
  that the reference uses (nothing opens them). With the two regions' whole-array results this makes the
  device program's result the network `net` of the ten arguments.
-/
import proofs.«121564_j12850542150068_1_alg».proof.Proof.Gen.KernelIdeal.Frame
import proofs.«121564_j12850542150068_1_alg».proof.Proof.KernelBlocks
import proofs.«121564_j12850542150068_1_alg».proof.Proof.RefNet

set_option maxRecDepth 16384

noncomputable section

namespace Cert.KernelIdeal.Stages

open Idealize.ShloMosaic Idealize.ShloMosaic.TcCoe Idealize.SL.Sem Idealize.ShloMosaic.StableHlo Idealize.ShloMosaic.ValueIdx
open Cert.KernelIdeal Cert.KernelIdeal.Gen Cert.KernelIdeal.Blocks Cert.RowLayers Cert.SageRows
open Cert.ReferenceIdeal.Net (meanAgg128 meanAgg256 net rowOf_row)

variable (m : (ℓ : Loc nD τ sig) → Buf (Elt Ideal) ℓ) (ρ : Dev nD → PrngReg)

/-- The select of the called `where`, with its operands and its result passed through the call's typed
    references: the transports are identities. -/
theorem where_call (a : (⟨S50000, .i1⟩ : BufTy).Contents (Elt Ideal)) (b : (⟨S50000, .f32⟩ : BufTy).Contents (Elt Ideal))
    (c0 : (⟨S_, .f32⟩ : BufTy).Contents (Elt Ideal)) :
    (TRef.of (sig := sig) (T := ⟨S50000, .f32⟩) main_v14).toBuf (Val := Elt Ideal)
      (select ((TRef.of (sig := sig) (T := ⟨S50000, .i1⟩) main_v9).ofBuf (Val := Elt Ideal) a)
        ((TRef.of (sig := sig) (T := ⟨S50000, .f32⟩) main_v13).ofBuf (Val := Elt Ideal) b)
        ((TRef.of (sig := sig) (T := ⟨S50000, .f32⟩) main_call0_v1).ofBuf (Val := Elt Ideal)
          ((TRef.of (sig := sig) (T := ⟨S50000, .f32⟩) main_call0_v1).toBuf (Val := Elt Ideal)
            (broadcastInDim S50000 ![] bcast_S_S50000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_4).ofBuf (Val := Elt Ideal) c0))))))))
      = select a b (broadcastInDim S50000 ![] bcast_S_S50000 (id c0)) := rfl

/-! ## What the first region finds -/

theorem V3_arg0 (c : Dev nD) : V3 m ρ c main_arg0 = (m ((c : Thread nD τ).loc main_arg0)) := by
  show StableHlo.after hostOps0_2 (StableHlo.after hostOps0_1 (StableHlo.after hostOps0 (W0 m ρ c))) _ = _
  simp only [hostOps0, hostOps0_1, hostOps0_2]
  after_results_simp

theorem V3_arg2 (c : Dev nD) : V3 m ρ c main_arg2 = (m ((c : Thread nD τ).loc main_arg2)) := by
  show StableHlo.after hostOps0_2 (StableHlo.after hostOps0_1 (StableHlo.after hostOps0 (W0 m ρ c))) _ = _
  simp only [hostOps0, hostOps0_1, hostOps0_2]
  after_results_simp

theorem V3_arg4 (c : Dev nD) : V3 m ρ c main_arg4 = (m ((c : Thread nD τ).loc main_arg4)) := by
  show StableHlo.after hostOps0_2 (StableHlo.after hostOps0_1 (StableHlo.after hostOps0 (W0 m ρ c))) _ = _
  simp only [hostOps0, hostOps0_1, hostOps0_2]
  after_results_simp

/-- The first bias as the one-row array the region reads. -/
theorem V3_bias (c : Dev nD) : (V3 m ρ c main_v28 : S1x256.Idx → EReal) = shapeCast S1x256 (m ((c : Thread nD τ).loc main_arg3)) shapeCasts_S256_S1x256 := by
  show StableHlo.after hostOps0_2 (StableHlo.after hostOps0_1 (StableHlo.after hostOps0 (W0 m ρ c))) _ = _
  simp only [hostOps0, hostOps0_1, hostOps0_2]
  after_results_simp
  rfl

set_option maxHeartbeats 4000000 in
/-- The neighbour means of the features, as the region finds them. -/
theorem V3_agg (c : Dev nD) : (V3 m ρ c main_v27 : S50000x128.Idx → EReal) = meanAgg128 (m ((c : Thread nD τ).loc main_arg0)) (m ((c : Thread nD τ).loc main_arg1)) := by
  show StableHlo.after hostOps0_2 (StableHlo.after hostOps0_1 (StableHlo.after hostOps0 (W0 m ρ c))) _ = _
  simp only [hostOps0, hostOps0_1, hostOps0_2]
  after_results_simp
  unfold Cert.ReferenceIdeal.Net.meanAgg128
  refine congrArg₂ (mulf (F := Ideal)) ?_ ?_
  · rfl
  · apply congrArg
    apply congrArg
    refine (where_call _ _ _).trans ?_
    rfl

/-- The first region's result: the rectified layer on the neighbour means and the features. -/
theorem W4_hidden (c : Dev nD) : (W4 m ρ c (Proc.devRef .tc main_v29) : S50000x256.Idx → EReal)
    = hiddenArr (N := 50000) (K := 128) (J := 256) zero (meanAgg128 (m ((c : Thread nD τ).loc main_arg0)) (m ((c : Thread nD τ).loc main_arg1))) (m ((c : Thread nD τ).loc main_arg0)) (m ((c : Thread nD τ).loc main_arg2)) (m ((c : Thread nD τ).loc main_arg4))
        (fun j => (m ((c : Thread nD τ).loc main_arg3)) (ix1 j)) := by
  refine (W4_arr m ρ c 5).trans ((final0 (V3 m ρ) c).trans ?_)
  unfold hidden1
  rw [V3_agg, V3_arg0, V3_arg2, V3_arg4, V3_bias]
  exact congrArg (hiddenArr (N := 50000) (K := 128) (J := 256) zero _ _ _ _) (rowOf_row (n := 256) (m ((c : Thread nD τ).loc main_arg3)) shapeCasts_S256_S1x256)

/-! ## What the second region finds -/

theorem V5_hidden (c : Dev nD) : V5 m ρ c main_v29 = W4 m ρ c (Proc.devRef .tc main_v29) := by
  show StableHlo.after hostOps1 (W4 m ρ c) _ = _
  simp only [hostOps1]
  after_results_simp

theorem V5_arg5 (c : Dev nD) : V5 m ρ c main_arg5 = (m ((c : Thread nD τ).loc main_arg5)) := by
  show StableHlo.after hostOps1 (W4 m ρ c) _ = _
  simp only [hostOps1]
  after_results_simp
  rw [W4_of_ne m ρ c main_arg5 (by decide)]
  show StableHlo.after hostOps0_2 (StableHlo.after hostOps0_1 (StableHlo.after hostOps0 (W0 m ρ c))) _ = _
  simp only [hostOps0, hostOps0_1, hostOps0_2]
  after_results_simp

theorem V5_arg7 (c : Dev nD) : V5 m ρ c main_arg7 = (m ((c : Thread nD τ).loc main_arg7)) := by
  show StableHlo.after hostOps1 (W4 m ρ c) _ = _
  simp only [hostOps1]
  after_results_simp
  rw [W4_of_ne m ρ c main_arg7 (by decide)]
  show StableHlo.after hostOps0_2 (StableHlo.after hostOps0_1 (StableHlo.after hostOps0 (W0 m ρ c))) _ = _
  simp only [hostOps0, hostOps0_1, hostOps0_2]
  after_results_simp

theorem V5_arg8 (c : Dev nD) : V5 m ρ c main_arg8 = (m ((c : Thread nD τ).loc main_arg8)) := by
  show StableHlo.after hostOps1 (W4 m ρ c) _ = _
  simp only [hostOps1]
  after_results_simp
  rw [W4_of_ne m ρ c main_arg8 (by decide)]
  show StableHlo.after hostOps0_2 (StableHlo.after hostOps0_1 (StableHlo.after hostOps0 (W0 m ρ c))) _ = _
  simp only [hostOps0, hostOps0_1, hostOps0_2]
  after_results_simp

/-- The second bias as the one-row array the region reads. -/
theorem V5_bias2 (c : Dev nD) : (V5 m ρ c main_v42 : S1x256.Idx → EReal) = shapeCast S1x256 (m ((c : Thread nD τ).loc main_arg6)) shapeCasts_S256_S1x256 := by
  show StableHlo.after hostOps1 (W4 m ρ c) _ = _
  simp only [hostOps1]
  after_results_simp
  rw [W4_of_ne m ρ c main_arg6 (by decide)]
  refine congrArg (fun v => shapeCast S1x256 v shapeCasts_S256_S1x256) ?_
  show StableHlo.after hostOps0_2 (StableHlo.after hostOps0_1 (StableHlo.after hostOps0 (W0 m ρ c))) _ = _
  simp only [hostOps0, hostOps0_1, hostOps0_2]
  after_results_simp

/-- The third bias as the one-row array the region reads. -/
theorem V5_bias3 (c : Dev nD) : (V5 m ρ c main_v43 : S1x2.Idx → EReal) = shapeCast S1x2 (m ((c : Thread nD τ).loc main_arg9)) shapeCasts_S2_S1x2 := by
  show StableHlo.after hostOps1 (W4 m ρ c) _ = _
  simp only [hostOps1]
  after_results_simp
  rw [W4_of_ne m ρ c main_arg9 (by decide)]
  refine congrArg (fun v => shapeCast S1x2 v shapeCasts_S2_S1x2) ?_
  show StableHlo.after hostOps0_2 (StableHlo.after hostOps0_1 (StableHlo.after hostOps0 (W0 m ρ c))) _ = _
  simp only [hostOps0, hostOps0_1, hostOps0_2]
  after_results_simp

set_option maxHeartbeats 4000000 in
/-- The neighbour means of the first region's result, as the second region finds them. -/
theorem V5_agg (c : Dev nD) : (V5 m ρ c main_v41 : S50000x256.Idx → EReal)
    = meanAgg256 (W4 m ρ c (Proc.devRef .tc main_v29)) (m ((c : Thread nD τ).loc main_arg1)) := by
  show StableHlo.after hostOps1 (W4 m ρ c) _ = _
  simp only [hostOps1]
  after_results_simp
  rw [W4_of_ne m ρ c main_v3 (by decide), W4_of_ne m ρ c main_v1 (by decide), W4_of_ne m ρ c main_v15 (by decide)]
  simp only [W3, W2, W1, hostOps0, hostOps0_1, hostOps0_2]
  after_results_simp
  unfold Cert.ReferenceIdeal.Net.meanAgg256
  refine congrArg₂ (mulf (F := Ideal)) ?_ ?_
  · rfl
  · apply congrArg
    apply congrArg
    refine (where_call _ _ _).trans ?_
    rfl

/-! ## The result -/

/-- The device program's result buffer ends holding the network of the ten arguments. -/
theorem result_eq (c : Dev nD) : (W6 m ρ c (Proc.devRef .tc main_v44) : S50000x2.Idx → EReal)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 7).trans ((final1 (V5 m ρ) c).trans ?_)
  unfold out2
  rw [V5_agg, V5_hidden, V5_arg5, V5_arg7, V5_arg8, V5_bias2, V5_bias3, W4_hidden]
  unfold Cert.ReferenceIdeal.Net.net
  rw [show rowOf (shapeCast S1x256 (m ((c : Thread nD τ).loc main_arg6)) shapeCasts_S256_S1x256) 0 = (fun j => (m ((c : Thread nD τ).loc main_arg6)) (ix1 j))
        from rowOf_row (n := 256) (m ((c : Thread nD τ).loc main_arg6)) shapeCasts_S256_S1x256,
      show rowOf (shapeCast S1x2 (m ((c : Thread nD τ).loc main_arg9)) shapeCasts_S2_S1x2) 0 = (fun j => (m ((c : Thread nD τ).loc main_arg9)) (ix1 j))
        from rowOf_row (n := 2) (m ((c : Thread nD τ).loc main_arg9)) shapeCasts_S2_S1x2]

end Cert.KernelIdeal.Stages

end
-- ==== Proof.lean ====
/-
  A two-layer mean-aggregating graph network on 50000 nodes and 800000 edges: the device program against its
  host reference, as functions on the extended reals.

  Both programs compute, on the host and with the same operations, every node's reciprocal in-degree and the
  mean of its in-neighbours' feature rows. The device program then runs a first region that walks the nodes in
  25 blocks of 2000 rows and computes the rectified layer

      h1[p, j] = max ((∑ k, a[p, k] · W1l[k, j]) + (∑ k, x[p, k] · W1r[k, j]) + b1[j], 0),

  `a` the neighbour means, `x` the features; the host aggregates `h1` the same way, and a second region
  computes the second rectified layer on those means and `h1` and, on it, the dense layer `h2 · W3 + b3`.
  The reference computes the same three layers on the host, adding the bias before the second product. Block
  `t` of a region's result depends on the same rows of its inputs only, so each region's result is one
  whole-array function of the arrays it finds (module KernelBlocks); the buffers it finds are terms of the
  launch memory (KernelStages); the reference's run is its operations composed (RefRun, RefNet). Row by row
  the two spellings of a layer differ in the order of three summands, and addition of extended reals is
  commutative and associative (LibSageRows), so both programs end at the one function `net` of the ten arguments
  — for all inputs: the precondition is never opened. The ideal pass rewrote nothing, so the device
  program's idealization has no rewrite to justify.
-/
import proofs.«121564_j12850542150068_1_alg».proof.Defs
import proofs.«121564_j12850542150068_1_alg».proof.Proof.Gen.Kernel
import proofs.«121564_j12850542150068_1_alg».proof.Proof.Gen.Kernel.Skeleton
import proofs.«121564_j12850542150068_1_alg».proof.Proof.Gen.Kernel.Launch
import proofs.«121564_j12850542150068_1_alg».proof.Proof.Gen.Kernel.Points
import proofs.«121564_j12850542150068_1_alg».proof.Proof.Gen.Kernel.Frame
import proofs.«121564_j12850542150068_1_alg».proof.Proof.Gen.KernelIdeal
import proofs.«121564_j12850542150068_1_alg».proof.Proof.Gen.KernelIdeal.Skeleton
import proofs.«121564_j12850542150068_1_alg».proof.Proof.Gen.KernelIdeal.Launch
import proofs.«121564_j12850542150068_1_alg».proof.Proof.Gen.KernelIdeal.Points
import proofs.«121564_j12850542150068_1_alg».proof.Proof.Gen.KernelIdeal.Frame
import proofs.«121564_j12850542150068_1_alg».proof.Proof.Gen.ReferenceIdeal
import proofs.«121564_j12850542150068_1_alg».proof.Proof.Gen.Pre_finite_inputs
import proofs.«121564_j12850542150068_1_alg».proof.Proof.RefRun
import proofs.«121564_j12850542150068_1_alg».proof.Proof.RefNet
import proofs.«121564_j12850542150068_1_alg».proof.Proof.KernelRun
import proofs.«121564_j12850542150068_1_alg».proof.Proof.KernelStages
import Idealize.ShloMosaic.Adequacy
import Idealize.ShloMosaic.Init

noncomputable section

namespace Cert.Proof

open Idealize.ShloMosaic Idealize.SL.Sem

/-- The device program runs and leaves its arguments unchanged, at the word level. -/
theorem frame_kernel : Cert.frame_Kernel := fun m ρ _ => Cert.Kernel.Gen.frame m ρ

/-- The same at the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten when the device program was idealized. -/
theorem preserves : Cert.preserves_Kernel_KernelIdeal := trivial

/-- From memories agreeing on the ten arguments both programs end with their result at the network `net` of the
    arguments: the device program by its two regions' whole-array results and the buffers they find, the
    reference by its three layers read row by row. -/
theorem algebraic : Cert.algebraic_KernelIdeal_ReferenceIdeal := by
  intro m ρ m' ρ' _ hagree
  refine ⟨fun c => Cert.ReferenceIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Stages.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Net.res_eq, Cert.ReferenceIdeal.Net.host_eq_net]
    obtain ⟨h0, h1, h2, h3, h4, h5, h6, h7, h8, h9⟩ := hagree c
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
